-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S64x8192 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x64 : Shape := ⟨3, ![8, 32768, 64]⟩
abbrev S8x64x64 : Shape := ⟨3, ![8, 64, 64]⟩
abbrev S8x64 : Shape := ⟨2, ![8, 64]⟩
abbrev S_ : Shape := ⟨0, ![]⟩

class Facts : Prop where
  bcast_S_S8x32768x64 : S_.BroadcastsInDim S8x32768x64 (![] : Fin 0 → Fin S8x32768x64.rank)
  reducesTo_S8x32768x64_S_d0_1_2 : S8x32768x64.ReducesTo [0, 1, 2] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S8x64 : S_.BroadcastsInDim S8x64 (![] : Fin 0 → Fin S8x64.rank)
  reducesTo_S8x64_S_d0_1 : S8x64.ReducesTo [0, 1] S_

variable [Facts]

def fn {F : FTy → Type} [FloatOps F] (main_arg0 : FVec F S8x32768x64 .f32) (main_arg1 : FVec F S8x64x64 .f32) (main_arg2 : FVec F S8x64 .f32) : IVec S_ 1 :=
  let main_v0 : FVec F S8x32768x64 .f32 := Host.absf main_arg0
  let main_cst : FVec F S_ .f32 := constant S_ .f32 0x7F800000#32
  let main_v1 : FVec F S8x32768x64 .f32 := broadcastInDim S8x32768x64 ![] bcast_S_S8x32768x64 main_cst
  let main_v2 : IVec S8x32768x64 1 := cmpf .olt main_v0 main_v1
  let main_c : IVec S_ 1 := constantI S_ 1 1#1
  let main_v3 : IVec S_ 1 := (fun x v => Host.reduce IntOp.andi x v reducesTo_S8x32768x64_S_d0_1_2 h_S_) main_v2 main_c
  let main_v4 : FVec F S8x64x64 .f32 := Host.absf main_arg1
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  main_v13
-- ==== Kernel.lean ====
abbrev S8x32768x64 : Shape := ⟨3, ![8, 32768, 64]⟩
abbrev S8x64x64 : Shape := ⟨3, ![8, 64, 64]⟩
abbrev S8x64 : Shape := ⟨2, ![8, 64]⟩
abbrev S8x64x1 : Shape := ⟨3, ![8, 64, 1]⟩
abbrev S8x64x32768 : Shape := ⟨3, ![8, 64, 32768]⟩
abbrev S1x8192x64 : Shape := ⟨3, ![1, 8192, 64]⟩
abbrev S1x64x64 : Shape := ⟨3, ![1, 64, 64]⟩
abbrev S1x64x1 : Shape := ⟨3, ![1, 64, 1]⟩
abbrev S1x64x8192 : Shape := ⟨3, ![1, 64, 8192]⟩
abbrev S8192x64 : Shape := ⟨2, ![8192, 64]⟩
abbrev S64x64 : Shape := ⟨2, ![64, 64]⟩
abbrev S64x1 : Shape := ⟨2, ![64, 1]⟩
abbrev S8192x1 : Shape := ⟨2, ![8192, 1]⟩
abbrev S64x8192 : Shape := ⟨2, ![64, 8192]⟩
abbrev S8192 : Shape := ⟨1, ![8192]⟩
abbrev S64 : Shape := ⟨1, ![64]⟩
abbrev S1x8192 : Shape := ⟨2, ![1, 8192]⟩

abbrev nBuf : Space → Nat
  | .hbm => 5
  | .vmem => 6
  | .smem => 0
  | _ => 0

abbrev bufTy : (tb : Table) → Fin (tcTables nBuf tb) → BufTy
  | .hbm, ⟨0, _⟩ => ⟨S8x32768x64, .f32⟩
  | .hbm, ⟨1, _⟩ => ⟨S8x64x64, .f32⟩
  | .hbm, ⟨2, _⟩ => ⟨S8x64, .f32⟩
  | .hbm, ⟨3, _⟩ => ⟨S8x64x1, .f32⟩
  | .hbm, ⟨4, _⟩ => ⟨S8x64x32768, .f32⟩
  | .local _ .vmem, ⟨0, _⟩ => ⟨S1x8192x64, .f32⟩
  | .local _ .vmem, ⟨1, _⟩ => ⟨S1x8192x64, .f32⟩
  | .local _ .vmem, ⟨2, _⟩ => ⟨S1x64x64, .f32⟩
  | .local _ .vmem, ⟨3, _⟩ => ⟨S1x64x1, .f32⟩
  | .local _ .vmem, ⟨4, _⟩ => ⟨S1x64x8192, .f32⟩
  | .local _ .vmem, ⟨5, _⟩ => ⟨S1x64x8192, .f32⟩
  | _, _ => ⟨S8x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8x64_S8x64x1_0_1 : S8x64.BroadcastsInDim S8x64x1 (![0, 1] : Fin 2 → Fin S8x64x1.rank)
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  slices_S8192x64_o0_0_S8192x1 : S8192x64.Slices ![0, 0] S8192x1
  slices_S64x64_o0_0_S64x1 : S64x64.Slices ![0, 0] S64x1
  bitsLt_bf16_f32 : FTy.bits .bf16 < FTy.bits .f32
  reduces_S8192x64_S8192 : S8192x64.Reduces [1] S8192
  shapeCasts_S8192_S8192x1 : S8192.ShapeCasts S8192x1
  reduces_S64x64_S64 : S64x64.Reduces [1] S64
  shapeCasts_S64_S64x1 : S64.ShapeCasts S64x1
  transposes_S8192x1_p1_0_S1x8192 : S8192x1.Transposes [1, 0] S1x8192
  broadcasts_S64x1_S64x8192 : S64x1.Broadcasts S64x8192
  broadcasts_S1x8192_S64x8192 : S1x8192.Broadcasts S64x8192
  reduces_S64x8192_S8192 : S64x8192.Reduces [0] S8192
  shapeCasts_S8192_S1x8192 : S8192.ShapeCasts S1x8192
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  shapeCasts_S64x8192_S1x64x8192 : S64x8192.ShapeCasts S1x64x8192
  dot_S64x64_S8192x64_S64x8192_1_1_0_0_n_n_wf : DotDims.WF S64x64 S8192x64 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S8x32768x64.size a
  hwx0_0 : ∀ i : grid0.Coords, EltTy.bits .f32 = 32 ∨ (Rect.block (s := S8x32768x64) S1x8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S8x64x1.size a
  hwx0_2 : ∀ i : grid0.Coords, EltTy.bits .f32 = 32 ∨ (Rect.block (s := S8x64x1) S1x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x8192.size a ≤ S8x64x32768.size a
  hwx0_3 : ∀ i : grid0.Coords, EltTy.bits .f32 = 32 ∨ (Rect.block (s := S8x64x32768) S1x64x8192.size (cc0_transform_3 i) (hinb0_3 i)).WholeWords (EltTy.packing .f32)

variable [Facts₀]

def dot_S64x64_S8192x64_S64x8192_1_1_0_0_n_n : DotDims S64x64 S8192x64 S64x8192 where
  lhsContracting := [1]
  rhsContracting := [1]
  lhsNonContracting := [0]
  rhsNonContracting := [0]
  lhsBatch := []
  rhsBatch := []
  wf := dot_S64x64_S8192x64_S64x8192_1_1_0_0_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32768x64 : Shape := ⟨3, ![8, 32768, 64]⟩
abbrev S8x64x64 : Shape := ⟨3, ![8, 64, 64]⟩
abbrev S8x64 : Shape := ⟨2, ![8, 64]⟩
abbrev S8x32768x1 : Shape := ⟨3, ![8, 32768, 1]⟩
abbrev S8x32768 : Shape := ⟨2, ![8, 32768]⟩
abbrev S8x32768x63 : Shape := ⟨3, ![8, 32768, 63]⟩
abbrev S8x64x1 : Shape := ⟨3, ![8, 64, 1]⟩
abbrev S8x64x63 : Shape := ⟨3, ![8, 64, 63]⟩
abbrev S8x1x32768 : Shape := ⟨3, ![8, 1, 32768]⟩
abbrev S8x64x32768 : Shape := ⟨3, ![8, 64, 32768]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S8x32768x64, .f32⟩
  | .hbm, ⟨1, _⟩ => ⟨S8x64x64, .f32⟩
  | .hbm, ⟨2, _⟩ => ⟨S8x64, .f32⟩
  | .hbm, ⟨3, _⟩ => ⟨S8x32768x1, .f32⟩
  | .hbm, ⟨4, _⟩ => ⟨S8x32768, .f32⟩
  | .hbm, ⟨5, _⟩ => ⟨S8x32768x63, .f32⟩
  | .hbm, ⟨6, _⟩ => ⟨S8x64x1, .f32⟩
  | .hbm, ⟨7, _⟩ => ⟨S8x64, .f32⟩
  | .hbm, ⟨8, _⟩ => ⟨S8x64x63, .f32⟩
  | .hbm, ⟨9, _⟩ => ⟨S8x1x32768, .f32⟩
  | .hbm, ⟨10, _⟩ => ⟨S8x64x1, .f32⟩
  | .hbm, ⟨11, _⟩ => ⟨S8x64x32768, .f32⟩
  | .hbm, ⟨12, _⟩ => ⟨S8x64x32768, .f32⟩
  | .hbm, ⟨13, _⟩ => ⟨S8x64x32768, .f32⟩
  | .hbm, ⟨14, _⟩ => ⟨S8x64x32768, .f32⟩
  | .hbm, ⟨15, _⟩ => ⟨S8x32768x63, .f32⟩
  | .hbm, ⟨16, _⟩ => ⟨S_, .f32⟩
  | .hbm, ⟨17, _⟩ => ⟨S8x32768, .f32⟩
  | .hbm, ⟨18, _⟩ => ⟨S8x1x32768, .f32⟩
  | .hbm, ⟨19, _⟩ => ⟨S_, .f32⟩
  | .hbm, ⟨20, _⟩ => ⟨S8x64x32768, .f32⟩
  | .hbm, ⟨21, _⟩ => ⟨S8x64x32768, .f32⟩
  | .hbm, ⟨22, _⟩ => ⟨S8x64x32768, .f32⟩
  | .hbm, ⟨23, _⟩ => ⟨S8x64x32768, .f32⟩
  | .hbm, ⟨24, _⟩ => ⟨S8x64x63, .f32⟩
  | .hbm, ⟨25, _⟩ => ⟨S_, .f32⟩
  | .hbm, ⟨26, _⟩ => ⟨S8x64, .f32⟩
  | .hbm, ⟨27, _⟩ => ⟨S8x64x1, .f32⟩
  | .hbm, ⟨28, _⟩ => ⟨S8x64x32768, .f32⟩
  | .hbm, ⟨29, _⟩ => ⟨S8x64x32768, .f32⟩
  | .hbm, ⟨30, _⟩ => ⟨S_, .f32⟩
  | .hbm, ⟨31, _⟩ => ⟨S8x64x32768, .f32⟩
  | .hbm, ⟨32, _⟩ => ⟨S8x64x32768, .f32⟩
  | .hbm, ⟨33, _⟩ => ⟨S8x64x32768, .f32⟩
  | .hbm, ⟨34, _⟩ => ⟨S8x64x32768, .f32⟩
  | .hbm, ⟨35, _⟩ => ⟨S8x64x32768, .f32⟩
  | .hbm, ⟨36, _⟩ => ⟨S8x64x32768, .f32⟩
  | .hbm, ⟨37, _⟩ => ⟨S_, .f32⟩
  | .hbm, ⟨38, _⟩ => ⟨S8x64x32768, .f32⟩
  | .hbm, ⟨39, _⟩ => ⟨S8x64x32768, .f32⟩
  | .hbm, ⟨40, _⟩ => ⟨S8x64x32768, .f32⟩
  | .hbm, ⟨41, _⟩ => ⟨S8x64x32768, .f32⟩
  | .hbm, ⟨42, _⟩ => ⟨S8x64x32768, .f32⟩
  | .hbm, ⟨43, _⟩ => ⟨S_, .f32⟩
  | .hbm, ⟨44, _⟩ => ⟨S8x64x32768, .f32⟩
  | .hbm, ⟨45, _⟩ => ⟨S8x64x32768, .f32⟩
  | .hbm, ⟨46, _⟩ => ⟨S8x64x32768, .f32⟩
  | .hbm, ⟨47, _⟩ => ⟨S8x64x32768, .f32⟩
  | .hbm, ⟨48, _⟩ => ⟨S8x64x1, .f32⟩
  | .hbm, ⟨49, _⟩ => ⟨S_, .f32⟩
  | .hbm, ⟨50, _⟩ => ⟨S8x64x1, .f32⟩
  | .hbm, ⟨51, _⟩ => ⟨S8x64x1, .f32⟩
  | .hbm, ⟨52, _⟩ => ⟨S8x64x32768, .f32⟩
  | .hbm, ⟨53, _⟩ => ⟨S8x64x32768, .f32⟩
  | .hbm, ⟨54, _⟩ => ⟨S8x64x32768, .f32⟩
  | .hbm, ⟨55, _⟩ => ⟨S8x64x32768, .f32⟩
  | .hbm, ⟨56, _⟩ => ⟨S8x64x32768, .f32⟩
  | .hbm, ⟨57, _⟩ => ⟨S_, .f32⟩
  | .hbm, ⟨58, _⟩ => ⟨S8x64x32768, .f32⟩
  | .hbm, ⟨59, _⟩ => ⟨S8x64x32768, .f32⟩
  | .hbm, ⟨60, _⟩ => ⟨S8x64x32768, .f32⟩
  | .hbm, ⟨61, _⟩ => ⟨S_, .f32⟩
  | .hbm, ⟨62, _⟩ => ⟨S8x64x32768, .f32⟩
  | .hbm, ⟨63, _⟩ => ⟨S8x64x32768, .f32⟩
  | .hbm, ⟨64, _⟩ => ⟨S_, .f32⟩
  | .hbm, ⟨65, _⟩ => ⟨S8x32768, .f32⟩
  | .hbm, ⟨66, _⟩ => ⟨S_, .f32⟩
  | .hbm, ⟨67, _⟩ => ⟨S8x32768, .f32⟩
  | .hbm, ⟨68, _⟩ => ⟨S8x32768, .f32⟩
  | .hbm, ⟨69, _⟩ => ⟨S8x1x32768, .f32⟩
  | .hbm, ⟨70, _⟩ => ⟨S8x64x32768, .f32⟩
  | .hbm, ⟨71, _⟩ => ⟨S8x64x32768, .f32⟩
  | .hbm, ⟨72, _⟩ => ⟨S8x64x32768, .f32⟩
  | .hbm, ⟨73, _⟩ => ⟨S_, .f32⟩
  | .hbm, ⟨74, _⟩ => ⟨S8x32768, .f32⟩
  | .hbm, ⟨75, _⟩ => ⟨S8x1x32768, .f32⟩
  | .hbm, ⟨76, _⟩ => ⟨S8x64x32768, .f32⟩
  | .hbm, ⟨77, _⟩ => ⟨S8x64x32768, .f32⟩
  | _, _ => ⟨S8x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]

class Facts₀ : Prop where
  slices_S8x32768x64_S8x32768x1_0_0_0 : S8x32768x64.Slices ![0, 0, 0] S8x32768x1
  shapeCasts_S8x32768x1_S8x32768 : S8x32768x1.ShapeCasts S8x32768
  slices_S8x32768x64_S8x32768x63_0_0_1 : S8x32768x64.Slices ![0, 0, 1] S8x32768x63
  slices_S8x64x64_S8x64x1_0_0_0 : S8x64x64.Slices ![0, 0, 0] S8x64x1
  shapeCasts_S8x64x1_S8x64 : S8x64x1.ShapeCasts S8x64
  slices_S8x64x64_S8x64x63_0_0_1 : S8x64x64.Slices ![0, 0, 1] S8x64x63
  bcast_S8x32768_S8x1x32768_0_2 : S8x32768.BroadcastsInDim S8x1x32768 (![0, 2] : Fin 2 → Fin S8x1x32768.rank)
  bcast_S8x64_S8x64x1_0_1 : S8x64.BroadcastsInDim S8x64x1 (![0, 1] : Fin 2 → Fin S8x64x1.rank)
  bcast_S8x1x32768_S8x64x32768_0_1_2 : S8x1x32768.BroadcastsInDim S8x64x32768 (![0, 1, 2] : Fin 3 → Fin S8x64x32768.rank)
  bcast_S8x64x1_S8x64x32768_0_1_2 : S8x64x1.BroadcastsInDim S8x64x32768 (![0, 1, 2] : Fin 3 → Fin S8x64x32768.rank)
  reducesTo_S8x32768x63_S8x32768_d2 : S8x32768x63.ReducesTo [2] S8x32768
  h_S_ : 0 < S_.numel
  bcast_S_S8x64x32768 : S_.BroadcastsInDim S8x64x32768 (![] : Fin 0 → Fin S8x64x32768.rank)
  reducesTo_S8x64x63_S8x64_d2 : S8x64x63.ReducesTo [2] S8x64
  bcast_S_S8x64x1 : S_.BroadcastsInDim S8x64x1 (![] : Fin 0 → Fin S8x64x1.rank)
  reducesTo_S8x64x32768_S8x32768_d1 : S8x64x32768.ReducesTo [1] S8x32768
  bcast_S_S8x32768 : S_.BroadcastsInDim S8x32768 (![] : Fin 0 → Fin S8x32768.rank)
  dot_S8x64x63_S8x32768x63_S8x64x32768_2_2_1_1_0_0_wf : DotDims.WF S8x64x63 S8x32768x63 S8x64x32768 [2] [2] [1] [1] [0] [0]

variable [Facts₀]

def dot_S8x64x63_S8x32768x63_S8x64x32768_2_2_1_1_0_0 : DotDims S8x64x63 S8x32768x63 S8x64x32768 where
  lhsContracting := [2]
  rhsContracting := [2]
  lhsNonContracting := [1]
  rhsNonContracting := [1]
  lhsBatch := [0]
  rhsBatch := [0]
  wf := dot_S8x64x63_S8x32768x63_S8x64x32768_2_2_1_1_0_0_wf

class Facts : Prop extends Facts₀ where

variable [Facts]
-- ==== Proof.Finite.lean ====
/-
  What the precondition says, element by element: every entry of the points array and of the slots array is a
  real number. (The precondition is the conjunction of three "every |x| is below +∞" tests, one per input; an
  extended real whose absolute value is below +∞ is neither infinity.)
-/
import proofs.«105465_j48541720379652_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

instance : Subsingleton S_.Idx := ⟨fun a b => funext fun d => d.elim0⟩

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

variable [Facts]

/-- Under the precondition every point entry and every slot entry is a real number. -/
theorem real_entries (x0 : FVec Ideal S8x32768x64 .f32) (x1 : FVec Ideal S8x64x64 .f32) (x2 : FVec Ideal S8x64 .f32)
    (h : fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨h01, -⟩ := IntOp.andi_eq_one.1 h0
  obtain ⟨ha, hb⟩ := IntOp.andi_eq_one.1 h01
  exact ⟨fun i => real_of_abs_lt_inf _ (Host.reduce_andi_all _ _ _ _ _ ha i),
    fun i => real_of_abs_lt_inf _ (Host.reduce_andi_all _ _ _ _ _ hb i)⟩

end Cert.Pre_finite_inputs.Finite

end
-- ==== Proof.Spec.lean ====
/-
  The mathematics of the attention weights, with no program in sight.

  One point of the cloud carries 64 channels `p`: channel 0 is its time, channels 1..63 its position. Each of the
  64 slots carries 64 channels `s k` of the same kind and a horizon `h k`. For a point and a slot,
    * the time difference is `p 0 - s k 0`,
    * the squared spatial distance is expanded as `|p|² - 2 p·s + |s|²` over the 63 spatial channels and
      clamped below at zero,
    * the score is `-(|sign(I) · sqrt(|I| + ε)|) + tanh((|dt| - sqrt(dx² + ε)) / (h + ε)) / 2` with
      `I = dt² - dx²` the interval,
  and the attention weights of the point are the softmax of its 64 scores over the slots, taken the stable way:
  the largest score is subtracted before exponentiating.

  The only algebra needed later is that a sum over all 64 channels minus its channel-0 term is the sum over the
  63 spatial channels; on the extended reals this needs the removed term to be finite.
-/
import Idealize.ShloMosaic.PureOps.Ideal
import Idealize.ShloMosaic.PureOps.Ideal.Laws
import Idealize.ShloMosaic.Lib.ValueIdx

noncomputable section

namespace Cert.ConeAttn

open Idealize.ShloMosaic Idealize.ShloMosaic.ValueIdx

/-- Absolute value on the extended reals, as the float operation reads there. -/
abbrev aabs (x : EReal) : EReal := max x (-x)

/-- The guarded squared spatial distance between a point `p` and a slot row `s`: the expansion
    `|p|² - 2 p·s + |s|²` over channels 1..63, clamped below at zero. Each norm is a sum started from zero. -/
def dist2 (p s : Fin 64 → EReal) : EReal :=
  max (((Ideal.ofBits .f32 0x00000000#32 + ∑ d : Fin 63, p d.succ * p d.succ)
        - Ideal.ofBits .f32 0x40000000#32 * ∑ d : Fin 63, s d.succ * p d.succ)
      + (Ideal.ofBits .f32 0x00000000#32 + ∑ d : Fin 63, s d.succ * s d.succ))
    (Ideal.ofBits .f32 0x00000000#32)

/-- The score of a (slot, point) pair from the interval `I`, the time difference `dt`, the squared distance `dx`
    and the slot's horizon `h`. -/
def scoreI (I dt dx h : EReal) : EReal :=
  Ideal.div
    (-(aabs (Ideal.sign I * Ideal.sqrt (aabs I + Ideal.ofBits .f32 0x322BCC77#32)))
      + Ideal.tanh (Ideal.div (aabs dt - Ideal.sqrt (dx + Ideal.ofBits .f32 0x322BCC77#32))
          (h + Ideal.ofBits .f32 0x322BCC77#32)) * Ideal.ofBits .f32 0x3F000000#32)
    (Ideal.ofBits .f32 0x3F800000#32)

/-- The score with the interval `dt² - dx²` put in. -/
def score (dt dx h : EReal) : EReal := scoreI (dt * dt - dx) dt dx h

/-- The score of slot `k` for the point `p`. -/
def logit (p : Fin 64 → EReal) (s : Fin 64 → Fin 64 → EReal) (h : Fin 64 → EReal) (k : Fin 64) : EReal :=
  score (p 0 - s k 0) (dist2 p (s k)) (h k)

/-- The stable softmax of 64 scores, at entry `k`: the largest score (a maximum started from -∞) is subtracted before
    exponentiating, and the normaliser is the sum of the exponentials, started from zero. -/
def softmaxAt (sc : Fin 64 → EReal) (k : Fin 64) : EReal :=
  Ideal.div (Ideal.exp (sc k - (Finset.univ : Finset (Fin 64)).fold max (Ideal.ofBits .f32 0xFF800000#32) sc))
    (Ideal.ofBits .f32 0x00000000#32
      + ∑ k' : Fin 64, Ideal.exp (sc k' - (Finset.univ : Finset (Fin 64)).fold max (Ideal.ofBits .f32 0xFF800000#32) sc))

/-- The attention weight of slot `k` for the point `p`: the stable softmax of the point's scores over the slots. -/
def weight (p : Fin 64 → EReal) (s : Fin 64 → Fin 64 → EReal) (h : Fin 64 → EReal) (k : Fin 64) : EReal :=
  softmaxAt (logit p s h) k

/-- The whole result array: entry (b, k, n) is the attention weight of slot `k` of batch `b` for point `n` of
    batch `b`, from the points [8, 32768, 64], the slots [8, 64, 64] and the horizons [8, 64]. -/
def attention (x0 : (⟨3, ![8, 32768, 64]⟩ : Shape).Idx → EReal) (x1 : (⟨3, ![8, 64, 64]⟩ : Shape).Idx → EReal)
    (x2 : (⟨2, ![8, 64]⟩ : Shape).Idx → EReal) : (⟨3, ![8, 64, 32768]⟩ : Shape).Idx → EReal :=
  fun i => weight (fun d => x0 (ix3 (i 0) (i 2) d)) (fun j d => x1 (ix3 (i 0) j d)) (fun j => x2 (ix2 (i 0) j)) (i 1)

theorem attention_apply (x0 : (⟨3, ![8, 32768, 64]⟩ : Shape).Idx → EReal) (x1 : (⟨3, ![8, 64, 64]⟩ : Shape).Idx → EReal)
    (x2 : (⟨2, ![8, 64]⟩ : Shape).Idx → EReal) (b : Fin 8) (k : Fin 64) (n : Fin 32768) :
    attention x0 x1 x2 (ix3 b k n)
      = weight (fun d => x0 (ix3 b n d)) (fun j d => x1 (ix3 b j d)) (fun j => x2 (ix2 b j)) k := rfl

/-! ## Removing the time channel from a sum over all channels -/

/-- A sum over all 64 channels minus its channel-0 term is the sum over channels 1..63, when that term is finite. -/
theorem sum_sub_first (g : Fin 64 → EReal) (r : ℝ) (h0 : g 0 = (r : EReal)) :
    (∑ d : Fin 64, g d) - g 0 = ∑ d : Fin 63, g d.succ := by
  rw [Fin.sum_univ_succ, h0]
  exact EReal.add_sub_cancel_left

/-- The squared spatial distance computed over all 64 channels with the time channel's contribution taken out of
    each of the three sums afterwards is `dist2`, provided both time entries are finite. -/
theorem dist2_of_full (p s : Fin 64 → EReal) (r q : ℝ) (hp : p 0 = (r : EReal)) (hs : s 0 = (q : EReal)) :
    max (((( ∑ d : Fin 64, p d * p d) - p 0 * p 0)
          - Ideal.ofBits .f32 0x40000000#32 * ((∑ d : Fin 64, s d * p d) - s 0 * p 0))
        + ((∑ d : Fin 64, s d * s d) - s 0 * s 0))
      (Ideal.ofBits .f32 0x00000000#32) = dist2 p s := by
  unfold dist2
  rw [sum_sub_first (fun d => p d * p d) (r * r) (by rw [hp, EReal.coe_mul]),
    sum_sub_first (fun d => s d * p d) (q * r) (by rw [hp, hs, EReal.coe_mul]),
    sum_sub_first (fun d => s d * s d) (q * q) (by rw [hs, EReal.coe_mul]),
    Ideal.ofBits_zero_f32, zero_add, zero_add]

/-- The score as a kernel spells it — the sign taken by comparisons, the negation as `0 - x` — is `scoreI`. -/
theorem scoreI_of_selects (I dt dx h : EReal) :
    Ideal.div
      ((Ideal.ofBits .f32 0x00000000#32
          - aabs (Scalar.select (FloatOps.cmpf (F := Ideal) (φ := .f32) .ogt (FloatOps.absf (F := Ideal) (φ := .f32) I) (Scalar.ofBits .f32 0x00000000#32))
              (Scalar.select (FloatOps.cmpf (F := Ideal) (φ := .f32) .olt I (Scalar.ofBits .f32 0x00000000#32)) (Scalar.ofBits (F := Ideal) .f32 0xBF800000#32)
                (Scalar.ofBits (F := Ideal) .f32 0x3F800000#32)) I
            * Ideal.sqrt (aabs I + Ideal.ofBits .f32 0x322BCC77#32)))
        + Ideal.tanh (Ideal.div (aabs dt - Ideal.sqrt (dx + Ideal.ofBits .f32 0x322BCC77#32))
            (h + Ideal.ofBits .f32 0x322BCC77#32)) * Ideal.ofBits .f32 0x3F000000#32)
      (Ideal.ofBits .f32 0x3F800000#32) = scoreI I dt dx h := by
  unfold scoreI
  rw [Ideal.jnp_sign_eq_sign_f32, Ideal.ofBits_zero_f32, zero_sub]

/-- The softmax with its normaliser summed without the zero start is the same number. -/
theorem softmaxAt_of_plain_sum (sc : Fin 64 → EReal) (k : Fin 64) :
    Ideal.div (Ideal.exp (sc k - (Finset.univ : Finset (Fin 64)).fold max (Ideal.ofBits .f32 0xFF800000#32) sc))
      (∑ k' : Fin 64, Ideal.exp (sc k' - (Finset.univ : Finset (Fin 64)).fold max (Ideal.ofBits .f32 0xFF800000#32) sc))
      = softmaxAt sc k := by
  unfold softmaxAt
  rw [Ideal.ofBits_zero_f32, zero_add]

/-- A maximum started from -∞ and then compared with -∞ once more is unchanged. -/
theorem max_ninf_left (y : EReal) : max (Ideal.ofBits .f32 0xFF800000#32) y = y := by
  have : Ideal.ofBits .f32 0xFF800000#32 = (⊥ : EReal) := by simp [Ideal.ofBits, Ideal.ieee]
  rw [this]; exact max_bot_left y

end Cert.ConeAttn

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelTime.lean ====
/-
  The kernel body's small pieces read at an index of one block: the time channel of the points as a row,
  the time channel of the slots as a column, and their difference over the (slot, point) grid.
  A block of points is `v0` of shape [1, 8192, 64], the slots are `v2` of shape [1, 64, 64].
-/
import proofs.«105465_j48541720379652_2_alg».proof.Proof.Gen.KernelIdeal.Skeleton
import proofs.«105465_j48541720379652_2_alg».proof.Proof.Spec
import proofs.«105465_j48541720379652_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.ConeAttn

/-- The points' time channel, laid out as one row: entry `n` is channel 0 of point `n`. -/
theorem time_row (v0 : Vec Ideal S1x8192x64 .f32) (n : Fin 8192) :
    k0_pay6 v0 (ix2 (0 : Fin 1) n) = v0 (ix3 (0 : Fin 1) n (0 : Fin 64)) := by
  unfold k0_pay6 k0_pay2
  exact (transpose_ix2_apply _ _ (0 : Fin 1) n).trans
    ((slice2_axis1_apply 0 _ _ n (0 : Fin 1) (0 : Fin 64) rfl).trans (shapeCast_1ab_ab_apply _ _ n (0 : Fin 64)))

/-- The slots' time channel, kept as a column: entry `k` is channel 0 of slot `k`. -/
theorem slot_time (v2 : Vec Ideal S1x64x64 .f32) (k : Fin 64) :
    k0_pay5 v2 (ix2 k (0 : Fin 1)) = v2 (ix3 (0 : Fin 1) k (0 : Fin 64)) := by
  unfold k0_pay5 k0_pay3
  exact (slice2_axis1_apply 0 _ _ k (0 : Fin 1) (0 : Fin 64) rfl).trans (shapeCast_1ab_ab_apply _ _ k (0 : Fin 64))

/-- The time difference of point `n` and slot `k`. -/
theorem tdiff_apply (v0 : Vec Ideal S1x8192x64 .f32) (v2 : Vec Ideal S1x64x64 .f32) (k : Fin 64) (n : Fin 8192) :
    k0_pay8 v0 v2 (ix2 k n) = v0 (ix3 (0 : Fin 1) n (0 : Fin 64)) - v2 (ix3 (0 : Fin 1) k (0 : Fin 64)) := by
  unfold k0_pay8
  show broadcastTo S64x8192 (k0_pay6 v0) broadcasts_S1x8192_S64x8192 (ix2 k n)
      - broadcastTo S64x8192 (k0_pay5 v2) broadcasts_S64x1_S64x8192 (ix2 k n) = _
  rw [broadcastTo_1b_ab_apply, broadcastTo_a1_ab_apply, time_row, slot_time]

end Cert.KernelIdeal.Pay

end
-- ==== Proof.KernelDist.lean ====
/-
  The guarded squared spatial distance, read at a (slot, point) pair of one block.
  The body computes the three sums of the expansion over ALL 64 channels — the product of the slot and point rows on
  the matrix unit, the two squared norms as lane sums — and takes the time channel's term out of each afterwards.
-/
import proofs.«105465_j48541720379652_2_alg».proof.Proof.Gen.KernelIdeal.Skeleton
import proofs.«105465_j48541720379652_2_alg».proof.Proof.Spec
import proofs.«105465_j48541720379652_2_alg».proof.Proof.LibColumn
import proofs.«105465_j48541720379652_2_alg».proof.Proof.KernelTime
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.ConeAttn

theorem cross_lhs0 (i : S64x8192.Idx) (q : dot_S64x64_S8192x64_S64x8192_1_1_0_0_n_n.contr.Idx) : (dot_S64x64_S8192x64_S64x8192_1_1_0_0_n_n.lhsIdx i q 0).val = (i 0).val := by
  unfold DotDims.lhsIdx
  rw [dif_neg (show ¬(0 : Fin S64x64.rank) ∈ dot_S64x64_S8192x64_S64x8192_1_1_0_0_n_n.lhsBatch by decide),
    dif_pos (show (0 : Fin S64x64.rank) ∈ dot_S64x64_S8192x64_S64x8192_1_1_0_0_n_n.lhsNonContracting by decide)]
  rfl
theorem cross_lhs1 (i : S64x8192.Idx) (q : dot_S64x64_S8192x64_S64x8192_1_1_0_0_n_n.contr.Idx) : (dot_S64x64_S8192x64_S64x8192_1_1_0_0_n_n.lhsIdx i q 1).val = (q ⟨0, by decide⟩).val :=
  dot_S64x64_S8192x64_S64x8192_1_1_0_0_n_n.lhsIdx_val_of_single rfl i q
theorem cross_rhs0 (i : S64x8192.Idx) (q : dot_S64x64_S8192x64_S64x8192_1_1_0_0_n_n.contr.Idx) : (dot_S64x64_S8192x64_S64x8192_1_1_0_0_n_n.rhsIdx i q 0).val = (i 1).val := by
  unfold DotDims.rhsIdx
  rw [dif_neg (show ¬(0 : Fin S8192x64.rank) ∈ dot_S64x64_S8192x64_S64x8192_1_1_0_0_n_n.rhsBatch by decide),
    dif_pos (show (0 : Fin S8192x64.rank) ∈ dot_S64x64_S8192x64_S64x8192_1_1_0_0_n_n.rhsNonContracting by decide)]
  rfl
theorem cross_rhs1 (i : S64x8192.Idx) (q : dot_S64x64_S8192x64_S64x8192_1_1_0_0_n_n.contr.Idx) : (dot_S64x64_S8192x64_S64x8192_1_1_0_0_n_n.rhsIdx i q 1).val = (q ⟨0, by decide⟩).val :=
  dot_S64x64_S8192x64_S64x8192_1_1_0_0_n_n.rhsIdx_val_of_single rfl i q

/-- The matrix product of the slot rows with the point rows, both contracted over their channel axis:
    entry (k, n) is the sum over all 64 channels of slot k's channel times point n's. -/
theorem cross_apply (A : FVec Ideal S64x64 .bf16) (B : FVec Ideal S8192x64 .bf16) (k : Fin 64) (n : Fin 8192) :
    matmul dot_S64x64_S8192x64_S64x8192_1_1_0_0_n_n none A B (constant (F := Ideal) S64x8192 .f32 0x00000000#32) (ix2 k n)
      = ∑ d : Fin 64, A (ix2 k d) * B (ix2 n d) := by
  simp only [matmul]
  rw [Ideal.matmul_constant_zero_apply, ← Equiv.sum_comp (contrEquiv1 dot_S64x64_S8192x64_S64x8192_1_1_0_0_n_n 64 rfl rfl).symm]
  refine Finset.sum_congr rfl fun d _ => ?_
  have hk := contrEquiv1_symm_val dot_S64x64_S8192x64_S64x8192_1_1_0_0_n_n 64 rfl rfl d
  have el : dot_S64x64_S8192x64_S64x8192_1_1_0_0_n_n.lhsIdx (ix2 k n) ((contrEquiv1 dot_S64x64_S8192x64_S64x8192_1_1_0_0_n_n 64 rfl rfl).symm d) = ix2 k d :=
    funext fun a => Fin.ext (by
      match a with
      | ⟨0, _⟩ => exact cross_lhs0 _ _
      | ⟨1, _⟩ => exact (cross_lhs1 _ _).trans hk)
  have er : dot_S64x64_S8192x64_S64x8192_1_1_0_0_n_n.rhsIdx (ix2 k n) ((contrEquiv1 dot_S64x64_S8192x64_S64x8192_1_1_0_0_n_n 64 rfl rfl).symm d) = ix2 n d :=
    funext fun a => Fin.ext (by
      match a with
      | ⟨0, _⟩ => exact cross_rhs0 _ _
      | ⟨1, _⟩ => exact (cross_rhs1 _ _).trans hk)
  rw [el, er]

/-- The lane sum of a block of point rows: entry n is the sum of row n over its 64 channels. -/
theorem point_rowsum (X : FVec Ideal S8192x64 .f32) (n : Fin 8192) :
    multiReduction .add [1] S8192 X 0x00000000#32 reduces_S8192x64_S8192 (.inl rfl) rfl (ix1 n)
      = ∑ d : Fin 64, X (ix2 n d) := by
  refine (Ideal.multiReduction_add_single X 0x00000000#32 reduces_S8192x64_S8192 (.inl rfl) rfl (ix1 n)).trans ?_
  refine Finset.sum_congr rfl fun d _ => congrArg X ?_
  funext c; apply Fin.ext
  fin_cases c <;> rfl

/-- The lane sum of the slot rows: entry k is the sum of row k over its 64 channels. -/
theorem slot_rowsum (X : FVec Ideal S64x64 .f32) (k : Fin 64) :
    multiReduction .add [1] S64 X 0x00000000#32 reduces_S64x64_S64 (.inl rfl) rfl (ix1 k)
      = ∑ d : Fin 64, X (ix2 k d) := by
  refine (Ideal.multiReduction_add_single X 0x00000000#32 reduces_S64x64_S64 (.inl rfl) rfl (ix1 k)).trans ?_
  refine Finset.sum_congr rfl fun d _ => congrArg X ?_
  funext c; apply Fin.ext
  fin_cases c <;> rfl

/-- A block of points with its leading unit axis dropped. -/
theorem points_apply (v0 : Vec Ideal S1x8192x64 .f32) (n : Fin 8192) (d : Fin 64) :
    k0_pay2 v0 (ix2 n d) = v0 (ix3 (0 : Fin 1) n d) := by
  unfold k0_pay2; exact shapeCast_1ab_ab_apply _ _ n d

/-- The slots with their leading unit axis dropped. -/
theorem slots_apply (v2 : Vec Ideal S1x64x64 .f32) (k : Fin 64) (d : Fin 64) :
    k0_pay3 v2 (ix2 k d) = v2 (ix3 (0 : Fin 1) k d) := by
  unfold k0_pay3; exact shapeCast_1ab_ab_apply _ _ k d

/-- The body's guarded squared distance at (slot k, point n) is `dist2` of the point's and the slot's channel rows,
    when the two time entries it subtracts back out are finite. -/
theorem dist2_apply (v0 : Vec Ideal S1x8192x64 .f32) (v2 : Vec Ideal S1x64x64 .f32) (k : Fin 64) (n : Fin 8192)
    (r q : ℝ) (hp : v0 (ix3 (0 : Fin 1) n (0 : Fin 64)) = (r : EReal)) (hs : v2 (ix3 (0 : Fin 1) k (0 : Fin 64)) = (q : EReal)) :
    k0_pay7 v0 v2 (ix2 k n)
      = dist2 (fun d => v0 (ix3 (0 : Fin 1) n d)) (fun d => v2 (ix3 (0 : Fin 1) k d)) := by
  unfold k0_pay7
  simp only [maximumf_apply, addf_apply, subf_apply, mulf_apply, broadcast_apply]
  rw [broadcastTo_1b_ab_apply, broadcastTo_a1_ab_apply, broadcastTo_a1_ab_apply, broadcastTo_1b_ab_apply, cross_apply]
  simp only [subf_apply, mulf_apply, truncf_apply]
  rw [time_row, slot_time, transpose_ix2_apply, shapeCast_a_a1_apply, shapeCast_a_a1_apply, point_rowsum, slot_rowsum]
  simp only [mulf_apply, points_apply, slots_apply]
  exact dist2_of_full (fun d => v0 (ix3 (0 : Fin 1) n d)) (fun d => v2 (ix3 (0 : Fin 1) k d)) r q hp hs

/-- The interval `dt² - dx²` at (slot k, point n). -/
theorem interval_apply (v0 : Vec Ideal S1x8192x64 .f32) (v2 : Vec Ideal S1x64x64 .f32) (k : Fin 64) (n : Fin 8192) :
    k0_pay9 v0 v2 (ix2 k n) = k0_pay8 v0 v2 (ix2 k n) * k0_pay8 v0 v2 (ix2 k n) - k0_pay7 v0 v2 (ix2 k n) := by
  unfold k0_pay9; rfl

end Cert.KernelIdeal.Pay

end
-- ==== Proof.KernelSoftmax.lean ====
/-
  The scores and their softmax over the slots, read at an entry of the block the body stores.
  The body holds the 64 × 8192 scores as one vector; the largest score of a point is a maximum down its column
  started from -∞, the normaliser the sum down the column of the exponentials.
-/
import proofs.«105465_j48541720379652_2_alg».proof.Proof.Gen.KernelIdeal.Skeleton
import proofs.«105465_j48541720379652_2_alg».proof.Proof.Spec
import proofs.«105465_j48541720379652_2_alg».proof.Proof.LibColumn
import proofs.«105465_j48541720379652_2_alg».proof.Proof.KernelDist
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.ConeAttn

/-- The maximum down a column of the (slot, point) grid, started from -∞. -/
theorem col_max (X : FVec Ideal S64x8192 .f32) (n : Fin 8192) :
    multiReduction .maximumf [0] S8192 X 0xFF800000#32 reduces_S64x8192_S8192 (.inl rfl) rfl (ix1 n)
      = (Finset.univ : Finset (Fin 64)).fold max (Ideal.ofBits .f32 0xFF800000#32) (fun k => X (ix2 k n)) := by
  refine (Ideal.multiReduction_maximumf_single X 0xFF800000#32 reduces_S64x8192_S8192 (.inl rfl) rfl (ix1 n)).trans ?_
  refine congrArg (fun f => Finset.fold max (Ideal.ofBits .f32 0xFF800000#32) f (Finset.univ : Finset (Fin 64))) ?_
  funext k
  exact congrArg X (by funext c; apply Fin.ext; fin_cases c <;> rfl)

/-- The sum down a column of the (slot, point) grid. -/
theorem col_sum (X : FVec Ideal S64x8192 .f32) (n : Fin 8192) :
    multiReduction .add [0] S8192 X 0x00000000#32 reduces_S64x8192_S8192 (.inl rfl) rfl (ix1 n)
      = ∑ k : Fin 64, X (ix2 k n) := by
  refine (Ideal.multiReduction_add_single X 0x00000000#32 reduces_S64x8192_S8192 (.inl rfl) rfl (ix1 n)).trans ?_
  refine Finset.sum_congr rfl fun k _ => congrArg X ?_
  funext c; apply Fin.ext
  fin_cases c <;> rfl

theorem exp_apply {s : Shape} {φ : FTy} (a : FVec Ideal s φ) (i : s.Idx) : exp a i = Ideal.exp (a i) := rfl
theorem tanh_apply {s : Shape} {φ : FTy} (a : FVec Ideal s φ) (i : s.Idx) : tanh a i = Ideal.tanh (a i) := rfl
theorem sqrt_apply {s : Shape} {φ : FTy} (a : FVec Ideal s φ) (i : s.Idx) : sqrt a i = Ideal.sqrt (a i) := rfl
theorem absf_apply {s : Shape} {φ : FTy} (a : FVec Ideal s φ) (i : s.Idx) : absf a i = aabs (a i) := rfl

/-- The entry (0, k, n) of the block the body stores: the stable softmax over the slots of the scores of point `n`,
    each score taken from the body's interval, time difference, squared distance and horizon vectors at (slot, n). -/
theorem weights_apply (v5 : FVec Ideal S64x1 .f32) (v34 v37 v39 : FVec Ideal S64x8192 .f32) (k : Fin 64) (n : Fin 8192) :
    k0_pay1 v5 v34 v37 v39 (ix3 (0 : Fin 1) k n)
      = softmaxAt (fun j => scoreI (v39 (ix2 j n)) (v37 (ix2 j n)) (v34 (ix2 j n)) (v5 (ix2 j (0 : Fin 1)))) k := by
  unfold k0_pay1
  rw [shapeCast_ab_1ab_apply]
  simp only [divf_apply, exp_apply, subf_apply]
  rw [broadcastTo_1b_ab_apply, broadcastTo_1b_ab_apply, shapeCast_a_1a_apply, shapeCast_a_1a_apply, col_sum]
  simp only [divf_apply, exp_apply, subf_apply, broadcastTo_1b_ab_apply, shapeCast_a_1a_apply]
  rw [col_max]
  simp only [divf_apply, subf_apply, addf_apply, mulf_apply, tanh_apply, sqrt_apply, absf_apply, broadcast_apply,
    select_apply, cmpf_apply, constant_apply, broadcastTo_a1_ab_apply]
  refine Eq.trans ?_ (softmaxAt_of_plain_sum _ k)
  simp only [← scoreI_of_selects]
  rfl

end Cert.KernelIdeal.Pay

end
-- ==== Proof.KernelBlock.lean ====
/-
  One block of the output, entry by entry: the softmax weights of the block's points, as `weight` of each point's
  channel row, the slots' rows and the slots' horizons — provided the time entries are finite.
-/
import proofs.«105465_j48541720379652_2_alg».proof.Proof.Gen.KernelIdeal.Skeleton
import proofs.«105465_j48541720379652_2_alg».proof.Proof.Spec
import proofs.«105465_j48541720379652_2_alg».proof.Proof.LibColumn
import proofs.«105465_j48541720379652_2_alg».proof.Proof.KernelSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.ConeAttn

/-- The horizons' block with its leading unit axis dropped. -/
theorem horizon_apply (v4 : Vec Ideal S1x64x1 .f32) (k : Fin 64) :
    k0_pay4 v4 (ix2 k (0 : Fin 1)) = v4 (ix3 (0 : Fin 1) k (0 : Fin 1)) := by
  unfold k0_pay4; exact shapeCast_1ab_ab_apply _ _ k (0 : Fin 1)

/-- What the body stores at entry (0, k, n) of its output block, from its three input blocks: the attention weight
    of slot `k` for point `n` of the block. -/
theorem block_apply (P0 : Vec Ideal S1x8192x64 .f32) (P1 : Vec Ideal S1x64x64 .f32) (P2 : Vec Ideal S1x64x1 .f32)
    (k : Fin 64) (n : Fin 8192)
    (hP0 : ∃ r : ℝ, P0 (ix3 (0 : Fin 1) n (0 : Fin 64)) = (r : EReal))
    (hP1 : ∀ j : Fin 64, ∃ q : ℝ, P1 (ix3 (0 : Fin 1) j (0 : Fin 64)) = (q : EReal)) :
    k0_pay1 (k0_pay4 P2) (k0_pay7 P0 P1) (k0_pay8 P0 P1) (k0_pay9 P0 P1) (ix3 (0 : Fin 1) k n)
      = weight (fun d => P0 (ix3 (0 : Fin 1) n d)) (fun j d => P1 (ix3 (0 : Fin 1) j d))
          (fun j => P2 (ix3 (0 : Fin 1) j (0 : Fin 1))) k := by
  rw [weights_apply]
  unfold weight
  refine congrArg (fun sc => softmaxAt sc k) (funext fun j => ?_)
  obtain ⟨r, hr⟩ := hP0
  obtain ⟨q, hq⟩ := hP1 j
  rw [interval_apply, tdiff_apply, dist2_apply P0 P1 j n r q hr hq, horizon_apply]
  rfl

end Cert.KernelIdeal.Pay

end
-- ==== Proof.KernelArray.lean ====
/-
  From blocks to the whole array. The grid has 8 × 4 points; point (b, q) reads points 8192·q … 8192·q + 8191 of
  batch b, all 64 slots and horizons of batch b, and writes the [64, 8192] block of weights of batch b at the same
  points. Every block is the restriction of ONE function of the argument arrays — the attention array — and the
  32 blocks cover the result array.
-/
import proofs.«105465_j48541720379652_2_alg».proof.Proof.Gen.KernelIdeal.Frame
import proofs.«105465_j48541720379652_2_alg».proof.Proof.KernelBlock
import Idealize.ShloMosaic.Lib.Pipeline.Value
import Idealize.ShloMosaic.Lib.StableHlo.Run

set_option maxRecDepth 16384

noncomputable section

namespace Cert.KernelIdeal.Arr

open Cert.KernelIdeal Cert.KernelIdeal.Gen Cert.KernelIdeal.Pay Idealize.ShloMosaic Idealize.ShloMosaic.TcCoe Idealize.SL.Sem
open Idealize.ShloMosaic.ValueIdx Cert.ConeAttn
open Idealize.ShloMosaic.Pipeline (Dat)

/-- One entry of a block is the attention array's entry under it: the block's points are `o, o+1, …` of batch `b`,
    its slots and horizons those of batch `b`. Stated over arbitrary blocks and arrays related entry by entry. -/
theorem block_entry (P0 : Vec Ideal S1x8192x64 .f32) (P1 : Vec Ideal S1x64x64 .f32) (P2 : Vec Ideal S1x64x1 .f32)
    (X0 : S8x32768x64.Idx → EReal) (X1 : S8x64x64.Idx → EReal) (X2 : S8x64.Idx → EReal)
    (hX0 : ∀ i, ∃ r : ℝ, X0 i = (r : EReal)) (hX1 : ∀ i, ∃ r : ℝ, X1 i = (r : EReal))
    (b : Fin 8) (o : ℕ) (ho : o + 8192 ≤ 32768)
    (h0 : ∀ (n : Fin 8192) (d : Fin 64), P0 (ix3 (0 : Fin 1) n d) = X0 (ix3 b ⟨o + n.val, by have := n.isLt; omega⟩ d))
    (h1 : ∀ (k : Fin 64) (d : Fin 64), P1 (ix3 (0 : Fin 1) k d) = X1 (ix3 b k d))
    (h2 : ∀ k : Fin 64, P2 (ix3 (0 : Fin 1) k (0 : Fin 1)) = X2 (ix2 b k))
    (y : S1x64x8192.Idx) (i : S8x64x32768.Idx)
    (hi0 : (i 0).val = b.val) (hi1 : (i 1).val = (y 1).val) (hi2 : (i 2).val = o + (y 2).val) :
    k0_pay1 (k0_pay4 P2) (k0_pay7 P0 P1) (k0_pay8 P0 P1) (k0_pay9 P0 P1) y = attention X0 X1 X2 i := by
  obtain ⟨u, k, n, rfl⟩ : ∃ (u : Fin 1) (k : Fin 64) (n : Fin 8192), y = ix3 u k n := ⟨y 0, y 1, y 2, eq_ix3 y⟩
  obtain rfl : u = 0 := Subsingleton.elim _ _
  have hi : i = ix3 b k (⟨o + n.val, by have := n.isLt; omega⟩ : Fin 32768) := by
    funext a; apply Fin.ext
    match a with
    | ⟨0, _⟩ => exact hi0
    | ⟨1, _⟩ => exact hi1
    | ⟨2, _⟩ => exact hi2
  rw [hi, attention_apply, block_apply P0 P1 P2 k n (by rw [h0]; exact hX0 _) (fun j => by rw [h1]; exact hX1 _)]
  simp only [h0, h1, h2]

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the 32 grid points: the three input windows move with the output window's
    batch coordinate, the points' window also with its point-tile coordinate. -/
theorem idx_facts : ∀ t : Fin cfg0.N,
    win0_0.index t (0 : Fin 3) = win0_3.index t (0 : Fin 3) ∧ win0_0.index t (1 : Fin 3) = win0_3.index t (2 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) = 0 ∧ win0_3.index t (2 : Fin 3) ≤ 3 :=
  (by decide +kernel : ∀ t : Fin grid0.N, _)

/-- Every (batch, point-tile) pair is some grid point's output block. -/
theorem idx_onto : ∀ (q0 : Fin 8) (q2 : Fin 4), ∃ t : Fin cfg0.N, win0_3.index t = ![q0.val, 0, q2.val] :=
  (by decide +kernel : ∀ (q0 : Fin 8) (q2 : Fin 4), ∃ t : Fin grid0.N, win0_3.index t = ![q0.val, 0, q2.val])

/-- The horizons as the region finds them: the [8, 64] argument with a trailing unit axis added on the host. -/
theorem V_horizons (c : Dev nD) :
    (V m c main_v0 : S8x64x1.Idx → EReal)
      = broadcastInDim S8x64x1 ![0, 1] bcast_S8x64_S8x64x1_0_1 (m ((c : Thread nD τ).loc main_arg2)) := by
  dsimp only [Gen.V, Gen.hostOps0]; after_results

/-- WHAT POINT `t` WRITES BACK is block `t` of the attention array of the argument arrays, when the points' and the
    slots' entries are real numbers. -/
theorem flushed_eq (hX0 : ∀ c : Dev nD, ∀ i, ∃ r : ℝ, m ((c : Thread nD τ).loc main_arg0) i = (r : EReal))
    (hX1 : ∀ c : Dev nD, ∀ i, ∃ r : ℝ, m ((c : Thread nD τ).loc main_arg1) i = (r : EReal))
    (c : Dev nD) (t : Fin cfg0.N) :
    (dats m 0 c).flushed 3 t = ((cfg0.win 3).blk t).view.read (Elt Ideal)
      (attention (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz3]
  simp only [View.ld_unit_zero (S := S1x8192x64) hz3, View.ld_unit_zero (S := S1x64x64) hz3, View.ld_unit_zero (S := S1x64x1) hz3]
  obtain ⟨e00, e01, e02, e10, e11, e12, e20, e21, e22, b0, b1, b2⟩ := idx_facts t
  funext y
  show k0_pay1 (k0_pay4 (iblk m c 2 t)) (k0_pay7 (iblk m c 0 t) (iblk m c 1 t)) (k0_pay8 (iblk m c 0 t) (iblk m c 1 t))
        (k0_pay9 (iblk m c 0 t) (iblk m c 1 t)) y
      = attention (m ((c : Thread nD τ).loc main_arg0)) (m ((c : Thread nD τ).loc main_arg1)) (m ((c : Thread nD τ).loc main_arg2))
          (((cfg0.win 3).blk t).view.emb y)
  refine block_entry (iblk m c 0 t) (iblk m c 1 t) (iblk m c 2 t) _ _ _ (hX0 c) (hX1 c)
    (⟨win0_3.index t (0 : Fin 3), by omega⟩ : Fin 8) (win0_3.index t (2 : Fin 3) * 8192) (by omega) ?_ ?_ ?_ y _ ?_ ?_ ?_
  · intro n d
    show V m c main_arg0 (((cfg0.win 0).blk t).view.emb (ix3 (0 : Fin 1) n d)) = _
    rw [V_main_arg0]
    refine congrArg _ ?_
    funext a; apply Fin.ext
    match a with
    | ⟨0, _⟩ => show win0_0.index t (0 : Fin 3) * 1 + 1 * 0 = win0_3.index t (0 : Fin 3); omega
    | ⟨1, _⟩ => show win0_0.index t (1 : Fin 3) * 8192 + 1 * n.val = win0_3.index t (2 : Fin 3) * 8192 + n.val; omega
    | ⟨2, _⟩ => show win0_0.index t (2 : Fin 3) * 64 + 1 * d.val = d.val; omega
  · intro k d
    show V m c main_arg1 (((cfg0.win 1).blk t).view.emb (ix3 (0 : Fin 1) k d)) = _
    rw [V_main_arg1]
    refine congrArg _ ?_
    funext a; apply Fin.ext
    match a with
    | ⟨0, _⟩ => show win0_1.index t (0 : Fin 3) * 1 + 1 * 0 = win0_3.index t (0 : Fin 3); omega
    | ⟨1, _⟩ => show win0_1.index t (1 : Fin 3) * 64 + 1 * k.val = k.val; omega
    | ⟨2, _⟩ => show win0_1.index t (2 : Fin 3) * 64 + 1 * d.val = d.val; omega
  · intro k
    show V m c main_v0 (((cfg0.win 2).blk t).view.emb (ix3 (0 : Fin 1) k (0 : Fin 1))) = _
    rw [V_horizons]
    refine broadcastInDim_apply _ _ _ _ (ix2 (⟨win0_3.index t (0 : Fin 3), by omega⟩ : Fin 8) k) fun a => ?_
    match a with
    | ⟨0, _⟩ =>
      show win0_3.index t (0 : Fin 3) = if (8 : ℕ) = 1 then 0 else win0_2.index t (0 : Fin 3) * 1 + 1 * 0
      rw [if_neg (by decide)]; omega
    | ⟨1, _⟩ =>
      show k.val = if (64 : ℕ) = 1 then 0 else win0_2.index t (1 : Fin 3) * 64 + 1 * k.val
      rw [if_neg (by decide)]; omega
  · have h : (y 0).val < 1 := (y 0).isLt
    show win0_3.index t (0 : Fin 3) * 1 + 1 * (y 0).val = win0_3.index t (0 : Fin 3); omega
  · show win0_3.index t (1 : Fin 3) * 64 + 1 * (y 1).val = (y 1).val; omega
  · show win0_3.index t (2 : Fin 3) * 8192 + 1 * (y 2).val = win0_3.index t (2 : Fin 3) * 8192 + (y 2).val; omega

/-- An index of the result array is in point `t`'s block iff each coordinate is in the block's range on its axis. -/
theorem mem_blk (t : Fin cfg0.N) (i : S8x64x32768.Idx) :
    i ∈ ((cfg0.win 3).blk t).view.set ↔ ∀ a : Fin 3, win0_3.index t a * S1x64x8192.size a ≤ (i a).val
      ∧ (i a).val < win0_3.index t a * S1x64x8192.size a + S1x64x8192.size a := by
  show i ∈ ((View.whole main_v1).slice (win0_3.rect t)).set ↔ _
  rw [View.set_slice_whole, Rect.mem_set_unit]
  exact Iff.rfl

/-- The 32 blocks cover the result array: entry (b, k, n) lies in the block of the point with batch b and point tile
    n / 8192. -/
theorem cover (i : S8x64x32768.Idx) : ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 32768 := (i 2).isLt
  obtain ⟨t, ht⟩ := idx_onto ⟨(i 0).val, hi0⟩ ⟨(i 2).val / 8192, by omega⟩
  have q0 : win0_3.index t (0 : Fin 3) = (i 0).val := congrFun ht 0
  have q1 : win0_3.index t (1 : Fin 3) = 0 := congrFun ht 1
  have q2 : win0_3.index t (2 : Fin 3) = (i 2).val / 8192 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 8192 ≤ (i 2).val ∧ (i 2).val < win0_3.index t (2 : Fin 3) * 8192 + 8192; omega

/-- THE RESULT ARRAY after the run is the attention array of the argument arrays. -/
theorem final (hX0 : ∀ c : Dev nD, ∀ i, ∃ r : ℝ, m ((c : Thread nD τ).loc main_arg0) i = (r : EReal))
    (hX1 : ∀ c : Dev nD, ∀ i, ∃ r : ℝ, m ((c : Thread nD τ).loc main_arg1) i = (r : EReal)) (c : Dev nD) :
    (dats m 0 c).arrAt 3 cfg0.N
      = attention (m ((c : Thread nD τ).loc main_arg0)) (m ((c : Thread nD τ).loc main_arg1)) (m ((c : Thread nD τ).loc main_arg2)) :=
  (dats m 0 c).arrAt_eq_of_cover 3 _ (fun t _ => flushed_eq m hX0 hX1 c t) cover

/-- The kernel's run with its result array named: every weakly fair execution terminates with the result at the
    attention array of the arguments and the arguments unchanged. -/
theorem run (hX0 : ∀ c : Dev nD, ∀ i, ∃ r : ℝ, m ((c : Thread nD τ).loc main_arg0) i = (r : EReal))
    (hX1 : ∀ c : Dev nD, ∀ i, ∃ r : ℝ, m ((c : Thread nD τ).loc main_arg1) i = (r : EReal)) :
    θ_run defs (onTc (τ := τ) (main (F := Ideal))) ⟨m, fun _ => 0, ρ⟩ fun r => ∀ c : Dev nD,
      r.2.mem ((c : Thread nD τ).loc main_v1)
        = attention (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m hX0 hX1 c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Arr

end
-- ==== Proof.RefValue.lean ====
/-
  The reference program's result, read one operation at a time, is the attention array of the specification.
-/
import proofs.«105465_j48541720379652_2_alg».proof.Proof.Gen.ReferenceIdeal.Read
import proofs.«105465_j48541720379652_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.ConeAttn

variable (x0 : (⟨S8x32768x64, .f32⟩ : BufTy).Contents (Elt Ideal)) (x1 : (⟨S8x64x64, .f32⟩ : BufTy).Contents (Elt Ideal))
  (x2 : (⟨S8x64, .f32⟩ : BufTy).Contents (Elt Ideal))

/-- Two indices built from the same coordinates are equal: each axis is checked, by computation or by arithmetic. -/
local macro "idx_pick" : tactic =>
  `(tactic| (funext a; apply Fin.ext; fin_cases a <;> first | rfl | (simp only [Fin.val_succ]; omega) | omega))

/-- The time difference of point `n` and slot `k` of batch `b`. -/
theorem ref_tdiff (b : Fin 8) (k : Fin 64) (n : Fin 32768) :
    val_main_v10 (F := Ideal) x0 x1 (ix3 b k n) = x0 (ix3 b n (0 : Fin 64)) - x1 (ix3 b k (0 : Fin 64)) := by
  have hb := b.isLt; have hk := k.isLt; have hn := n.isLt
  rw [val_main_v10_apply, val_main_v8_apply, val_main_v6_apply, val_main_v1_apply, val_main_v0_apply,
    val_main_v9_apply, val_main_v7_apply, val_main_v4_apply, val_main_v3_apply]
  refine congrArg₂ (fun u v : EReal => u - v) (congrArg x0 ?_) (congrArg x1 ?_)
  · funext a; apply Fin.ext
    match a with
    | ⟨0, _⟩ => show (b.val * 32768 + n.val) / 32768 = b.val; omega
    | ⟨1, _⟩ => show (b.val * 32768 + n.val) / 1 % 32768 = n.val; omega
    | ⟨2, _⟩ => rfl
  · funext a; apply Fin.ext
    match a with
    | ⟨0, _⟩ => show (b.val * 64 + k.val) / 64 = b.val; omega
    | ⟨1, _⟩ => show (b.val * 64 + k.val) / 1 % 64 = k.val; omega
    | ⟨2, _⟩ => rfl

/-- The product of the spatial channels of slot `k` and point `n`. -/
theorem ref_cross (b : Fin 8) (k : Fin 64) (n : Fin 32768) :
    val_main_v11 (F := Ideal) x0 x1 (ix3 b k n) = ∑ d : Fin 63, x1 (ix3 b k d.succ) * x0 (ix3 b n d.succ) := by
  rw [val_main_v11_apply]
  refine Finset.sum_congr rfl fun d _ => ?_
  rw [val_main_v5_apply, val_main_v2_apply]
  refine congrArg₂ (fun u v : EReal => u * v) (congrArg x1 ?_) (congrArg x0 ?_) <;> idx_pick

/-- The squared norm of the spatial channels of point `n`, broadcast over the slots. -/
theorem ref_pnorm (b : Fin 8) (k : Fin 64) (n : Fin 32768) :
    val_main_v17 (F := Ideal) x0 (ix3 b k n)
      = Ideal.ofBits .f32 0x00000000#32 + ∑ d : Fin 63, x0 (ix3 b n d.succ) * x0 (ix3 b n d.succ) := by
  rw [val_main_v17_apply, val_main_v14_apply, val_main_v13_apply, val_main_cst_apply]
  refine congrArg (fun u : EReal => Ideal.ofBits .f32 0x00000000#32 + u) (Finset.sum_congr rfl fun d _ => ?_)
  rw [val_main_v12_apply, val_main_v2_apply]
  have e : idx_main_v2 (idx_main_v13 (idx_main_v14 (idx_main_v17 (ix3 b k n))) d) = ix3 b n d.succ := by idx_pick
  rw [e]; rfl

/-- The squared norm of the spatial channels of slot `k`, broadcast over the points. -/
theorem ref_snorm (b : Fin 8) (k : Fin 64) (n : Fin 32768) :
    val_main_v22 (F := Ideal) x1 (ix3 b k n)
      = Ideal.ofBits .f32 0x00000000#32 + ∑ d : Fin 63, x1 (ix3 b k d.succ) * x1 (ix3 b k d.succ) := by
  rw [val_main_v22_apply, val_main_v21_apply, val_main_v20_apply, val_main_cst_1_apply]
  refine congrArg (fun u : EReal => Ideal.ofBits .f32 0x00000000#32 + u) (Finset.sum_congr rfl fun d _ => ?_)
  rw [val_main_v19_apply, val_main_v5_apply]
  have e : idx_main_v5 (idx_main_v20 (idx_main_v21 (idx_main_v22 (ix3 b k n))) d) = ix3 b k d.succ := by idx_pick
  rw [e]; rfl

/-- The guarded squared spatial distance of point `n` and slot `k`. -/
theorem ref_dist2 (b : Fin 8) (k : Fin 64) (n : Fin 32768) :
    val_main_v25 (F := Ideal) x0 x1 (ix3 b k n) = dist2 (fun d => x0 (ix3 b n d)) (fun d => x1 (ix3 b k d)) := by
  rw [val_main_v25_apply, val_main_v23_apply, val_main_v18_apply, val_main_v16_apply, val_main_v24_apply,
    val_main_cst_2_apply, val_main_v15_apply, val_main_cst_0_apply, ref_pnorm, ref_snorm, ref_cross]
  rfl

/-- The score of slot `k` for point `n`. -/
theorem ref_logit (b : Fin 8) (k : Fin 64) (n : Fin 32768) :
    val_main_v51 (F := Ideal) x0 x1 x2 (ix3 b k n)
      = logit (fun d => x0 (ix3 b n d)) (fun j d => x1 (ix3 b j d)) (fun j => x2 (ix2 b j)) k := by
  rw [val_main_v51_apply, val_main_v49_apply, val_main_v45_apply, val_main_v44_apply, val_main_v33_apply,
    val_main_v28_apply, val_main_v32_apply, val_main_v31_apply, val_main_v29_apply, val_main_v30_apply,
    val_main_cst_3_apply, val_main_v27_apply, val_main_v26_apply, val_main_v48_apply, val_main_v46_apply,
    val_main_v43_apply, val_main_v38_apply, val_main_v34_apply, val_main_v37_apply, val_main_v36_apply,
    val_main_v35_apply, val_main_cst_4_apply, val_main_v42_apply, val_main_v41_apply, val_main_v39_apply,
    val_main_v40_apply, val_main_cst_5_apply, val_main_v47_apply, val_main_cst_6_apply, val_main_v50_apply,
    val_main_cst_7_apply, ref_dist2, ref_tdiff]
  have e : idx_main_v39 (idx_main_v42 (ix3 b k n)) = ix2 b k := by idx_pick
  rw [e]
  rfl

/-- The largest score of point `n` over the slots. -/
theorem ref_peak (b : Fin 8) (n : Fin 32768) :
    val_main_v54 (F := Ideal) x0 x1 x2 (ix2 b n)
      = (Finset.univ : Finset (Fin 64)).fold max (Ideal.ofBits .f32 0xFF800000#32)
          (logit (fun d => x0 (ix3 b n d)) (fun j d => x1 (ix3 b j d)) (fun j => x2 (ix2 b j))) := by
  rw [val_main_v54_apply, val_main_v53_apply, val_main_cst_9_apply]
  refine (max_ninf_left _).trans ?_
  unfold val_main_v52
  rw [Host.reduce_eq_fold_single FloatOps.maximumf _ _ reducesTo_S8x64x32768_S8x32768_d1 (by decide) h_S_]
  refine congrArg (fun f => Finset.fold max (Ideal.ofBits .f32 0xFF800000#32) f (Finset.univ : Finset (Fin 64))) ?_
  funext j
  have e : Shape.Reduces.lift (s := S8x64x32768) (t := S8x32768) (a := 1) (by decide) (ix2 b n) j
      = ix3 b (⟨j.val, j.isLt⟩ : Fin 64) n := by
    funext c; apply Fin.ext; fin_cases c <;> rfl
  exact (congrArg (val_main_v51 (F := Ideal) x0 x1 x2) e).trans (ref_logit x0 x1 x2 b ⟨j.val, j.isLt⟩ n)

/-- The reference's result at (b, k, n) is the attention weight of the specification. -/
theorem ref_weight (b : Fin 8) (k : Fin 64) (n : Fin 32768) :
    val_main_v62 (F := Ideal) x0 x1 x2 (ix3 b k n)
      = weight (fun d => x0 (ix3 b n d)) (fun j d => x1 (ix3 b j d)) (fun j => x2 (ix2 b j)) k := by
  rw [val_main_v62_apply, val_main_v61_apply, val_main_v60_apply, val_main_v59_apply, val_main_cst_10_apply,
    val_main_v58_apply, val_main_v57_apply, val_main_v56_apply, val_main_v55_apply]
  have e1 : idx_main_v55 (idx_main_v56 (ix3 b k n)) = ix2 b n := by idx_pick
  have e2 : idx_main_v60 (idx_main_v61 (ix3 b k n)) = ix2 b n := by idx_pick
  rw [e1, e2, ref_peak, ref_logit]
  unfold weight softmaxAt
  refine congrArg (fun u : EReal => Ideal.div _ (Ideal.ofBits .f32 0x00000000#32 + u)) (Finset.sum_congr rfl fun j _ => ?_)
  rw [val_main_v58_apply, val_main_v57_apply, val_main_v56_apply, val_main_v55_apply]
  have e3 : idx_main_v59 (ix2 b n) j = ix3 b j n := by idx_pick
  have e4 : idx_main_v55 (idx_main_v56 (ix3 b j n)) = ix2 b n := by idx_pick
  rw [e3, e4, ref_peak, ref_logit]
  rfl

/-- The reference's whole result array is the attention array. -/
theorem result_eq : val_main_v62 (F := Ideal) x0 x1 x2 = attention x0 x1 x2 := by
  funext i
  obtain ⟨b, k, n, rfl⟩ : ∃ (b : Fin 8) (k : Fin 64) (n : Fin 32768), i = ix3 b k n := ⟨i 0, i 1, i 2, eq_ix3 i⟩
  rw [ref_weight, attention_apply]

end Cert.ReferenceIdeal.RefValue

end
-- ==== Proof.lean ====
/-
  The certificate of the scale-adaptive attention kernel against its jnp reference.

  Both programs compute, for every batch b, slot k and point n, the softmax over the slots of a score built from
  the time difference of the point and the slot, their guarded squared spatial distance and the slot's horizon
  (Proof/Spec.lean: `attention`). The kernel tiles the points 8192 at a time, contracts and sums over all 64
  channels and removes the time channel's term afterwards, where the reference slices the 63 spatial channels out
  first; on the extended reals the two agree because the removed terms are finite under the precondition.

    * the three frames: the generated frame runs (the reference's is its generated run with the result dropped);
    * preserves: the one ledger entry, the sign-bit rule's statement at the site's shape;
    * algebraic: the kernel's result array is `attention` of the arguments (Proof/KernelArray.lean: each grid point
      writes the block of `attention` under it, and the blocks cover the array), and so is the reference's
      (Proof/RefValue.lean, one operation at a time).
-/
import proofs.«105465_j48541720379652_2_alg».proof.Defs
import proofs.«105465_j48541720379652_2_alg».proof.Proof.Gen.Kernel
import proofs.«105465_j48541720379652_2_alg».proof.Proof.Gen.Kernel.Skeleton
import proofs.«105465_j48541720379652_2_alg».proof.Proof.Gen.Kernel.Launch
import proofs.«105465_j48541720379652_2_alg».proof.Proof.Gen.Kernel.Points
import proofs.«105465_j48541720379652_2_alg».proof.Proof.Gen.Kernel.Frame
import proofs.«105465_j48541720379652_2_alg».proof.Proof.Gen.KernelIdeal
import proofs.«105465_j48541720379652_2_alg».proof.Proof.Gen.KernelIdeal.Skeleton
import proofs.«105465_j48541720379652_2_alg».proof.Proof.Gen.KernelIdeal.Launch
import proofs.«105465_j48541720379652_2_alg».proof.Proof.Gen.KernelIdeal.Points
import proofs.«105465_j48541720379652_2_alg».proof.Proof.Gen.KernelIdeal.Frame
import proofs.«105465_j48541720379652_2_alg».proof.Proof.Gen.ReferenceIdeal
import proofs.«105465_j48541720379652_2_alg».proof.Proof.Gen.Pre_finite_inputs
import proofs.«105465_j48541720379652_2_alg».proof.Proof.Gen.ReferenceIdeal.Run
import proofs.«105465_j48541720379652_2_alg».proof.Proof.Gen.ReferenceIdeal.Read
import proofs.«105465_j48541720379652_2_alg».proof.Proof.Finite
import proofs.«105465_j48541720379652_2_alg».proof.Proof.KernelArray
import proofs.«105465_j48541720379652_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The ledger's one entry: the sign-bit rule's statement at the [64, 8192] interval vector. -/
theorem preserves : Cert.preserves_Kernel_KernelIdeal := IdealRules.sign_bit.statement Cert.KernelIdeal.S64x8192 .f32

/-- Both idealized programs end with the attention array of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Pre_finite_inputs.Finite.real_entries _ _ _ (hpre c)
  refine ⟨_, Cert.KernelIdeal.Arr.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
